-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x64x64 : Shape := ⟨4, ![4, 512, 64, 64]⟩
abbrev S512x512 : Shape := ⟨2, ![512, 512]⟩
abbrev S_ : Shape := ⟨0, ![]⟩

class Facts : Prop where
  bcast_S_S4x512x64x64 : S_.BroadcastsInDim S4x512x64x64 (![] : Fin 0 → Fin S4x512x64x64.rank)
  reducesTo_S4x512x64x64_S_d0_1_2_3 : S4x512x64x64.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S4x512x64x64 .f32) (main_arg1 : FVec F S512x512 .f32) (main_arg2 : FVec F S512x512 .f32) : IVec S_ 1 :=
  let main_v0 : FVec F S4x512x64x64 .f32 := Host.absf main_arg0
  let main_cst : FVec F S_ .f32 := constant S_ .f32 0x7F800000#32
  let main_v1 : FVec F S4x512x64x64 .f32 := broadcastInDim S4x512x64x64 ![] bcast_S_S4x512x64x64 main_cst
  let main_v2 : IVec S4x512x64x64 1 := cmpf .olt main_v0 main_v1
  let main_c : IVec S_ 1 := constantI S_ 1 1#1
  let main_v3 : IVec S_ 1 := (fun x v => Host.reduce IntOp.andi x v reducesTo_S4x512x64x64_S_d0_1_2_3 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S4x512x64x64 : Shape := ⟨4, ![4, 512, 64, 64]⟩
abbrev S512x512 : Shape := ⟨2, ![512, 512]⟩
abbrev S4x512x4096 : Shape := ⟨3, ![4, 512, 4096]⟩
abbrev S4x4096x512 : Shape := ⟨3, ![4, 4096, 512]⟩
abbrev S1x4096x512 : Shape := ⟨3, ![1, 4096, 512]⟩
abbrev S1x512x512 : Shape := ⟨3, ![1, 512, 512]⟩
abbrev S4096x512 : Shape := ⟨2, ![4096, 512]⟩
abbrev S512x4096 : Shape := ⟨2, ![512, 4096]⟩
abbrev S512 : Shape := ⟨1, ![512]⟩
abbrev S512x1 : Shape := ⟨2, ![512, 1]⟩

abbrev nBuf : Space → Nat
  | .hbm => 11
  | .vmem => 7
  | .smem => 0
  | _ => 0

abbrev bufTy : (tb : Table) → Fin (tcTables nBuf tb) → BufTy
  | .hbm, ⟨0, _⟩ => ⟨S4x512x64x64, .f32⟩
  | .hbm, ⟨1, _⟩ => ⟨S512x512, .f32⟩
  | .hbm, ⟨2, _⟩ => ⟨S512x512, .f32⟩
  | .hbm, ⟨3, _⟩ => ⟨S4x512x4096, .f32⟩
  | .hbm, ⟨4, _⟩ => ⟨S4x4096x512, .f32⟩
  | .hbm, ⟨5, _⟩ => ⟨S4x4096x512, .bf16⟩
  | .hbm, ⟨6, _⟩ => ⟨S512x512, .bf16⟩
  | .hbm, ⟨7, _⟩ => ⟨S512x512, .bf16⟩
  | .hbm, ⟨8, _⟩ => ⟨S4x4096x512, .f32⟩
  | .hbm, ⟨9, _⟩ => ⟨S4x512x4096, .f32⟩
  | .hbm, ⟨10, _⟩ => ⟨S4x512x64x64, .f32⟩
  | .local _ .vmem, ⟨0, _⟩ => ⟨S1x4096x512, .bf16⟩
  | .local _ .vmem, ⟨1, _⟩ => ⟨S1x4096x512, .bf16⟩
  | .local _ .vmem, ⟨2, _⟩ => ⟨S512x512, .bf16⟩
  | .local _ .vmem, ⟨3, _⟩ => ⟨S512x512, .bf16⟩
  | .local _ .vmem, ⟨4, _⟩ => ⟨S1x512x512, .f32⟩
  | .local _ .vmem, ⟨5, _⟩ => ⟨S1x512x512, .f32⟩
  | .local _ .vmem, ⟨6, _⟩ => ⟨S4096x512, .bf16⟩
  | _, _ => ⟨S4x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x512x64x64_S4x512x4096 : S4x512x64x64.ShapeCasts S4x512x4096
  transposes_S4x512x4096_S4x4096x512_0_2_1 : S4x512x4096.Transposes [0, 2, 1] S4x4096x512
  bitsLt_bf16_f32 : FTy.bits .bf16 < FTy.bits .f32
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  packedbf16_S4096x512_S4096x512_0_0 : (Rect.unit (s := S4096x512) ![0, 0] S4096x512.size inb_S4096x512_S4096x512_0_0).PackedRows (EltTy.packing .bf16)
  h_S1x512x512 : 0 < S1x512x512.numel
  shapeCasts_S1x512x512_S512x512 : S1x512x512.ShapeCasts S512x512
  transposes_S4096x512_p1_0_S512x4096 : S4096x512.Transposes [1, 0] S512x4096
  reduces_S512x4096_S512 : S512x4096.Reduces [1] S512
  shapeCasts_S512_S512x1 : S512.ShapeCasts S512x1
  broadcasts_S512x1_S512x4096 : S512x1.Broadcasts S512x4096
  inb_S1x512x512_S1x512x512_0_0_0 : ∀ a, (![0, 0, 0] : Fin 3 → Nat) a + S1x512x512.size a ≤ S1x512x512.size a
  shapeCasts_S512x512_S1x512x512 : S512x512.ShapeCasts S1x512x512
  transposes_S4x4096x512_S4x512x4096_0_2_1 : S4x4096x512.Transposes [0, 2, 1] S4x512x4096
  shapeCasts_S4x512x4096_S4x512x64x64 : S4x512x4096.ShapeCasts S4x512x64x64
  dot_S4096x512_S512x512_S4096x512_1_0_0_1_n_n_wf : DotDims.WF S4096x512 S512x512 S4096x512 [1] [0] [0] [1] [] []
  dot_S512x512_S512x512_S512x512_1_0_0_1_n_n_wf : DotDims.WF S512x512 S512x512 S512x512 [1] [0] [0] [1] [] []
  dot_S512x512_S512x4096_S512x4096_1_0_0_1_n_n_wf : DotDims.WF S512x512 S512x4096 S512x4096 [1] [0] [0] [1] [] []
  dot_S512x4096_S4096x512_S512x512_1_0_0_1_n_n_wf : DotDims.WF S512x4096 S4096x512 S512x512 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x512.size a ≤ S1x4096x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S4x4096x512.size a
  hwx0_0 : ∀ i : grid0.Coords, EltTy.bits .bf16 = 32 ∨ (Rect.block (s := S4x4096x512) S1x4096x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S4x4096x512.size a
  hwx0_3 : ∀ i : grid0.Coords, EltTy.bits .f32 = 32 ∨ (Rect.block (s := S4x4096x512) S1x512x512.size (cc0_transform_3 i) (hinb0_3 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_v2) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x512x64x64 : Shape := ⟨4, ![4, 512, 64, 64]⟩
abbrev S512x512 : Shape := ⟨2, ![512, 512]⟩
abbrev S4x512x4096 : Shape := ⟨3, ![4, 512, 4096]⟩
abbrev S4x4096x512 : Shape := ⟨3, ![4, 4096, 512]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4x512x64x64, .f32⟩
  | .hbm, ⟨1, _⟩ => ⟨S512x512, .f32⟩
  | .hbm, ⟨2, _⟩ => ⟨S512x512, .f32⟩
  | .hbm, ⟨3, _⟩ => ⟨S4x512x4096, .f32⟩
  | .hbm, ⟨4, _⟩ => ⟨S4x4096x512, .f32⟩
  | .hbm, ⟨5, _⟩ => ⟨S4x4096x512, .f32⟩
  | .hbm, ⟨6, _⟩ => ⟨S4x4096x4096, .f32⟩
  | .hbm, ⟨7, _⟩ => ⟨S_, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S4x4096, .f32⟩
  | .hbm, ⟨12, _⟩ => ⟨S_, .f32⟩
  | .hbm, ⟨13, _⟩ => ⟨S4x4096, .f32⟩
  | .hbm, ⟨14, _⟩ => ⟨S4x4096, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S4x4096x4096, .f32⟩
  | .hbm, ⟨23, _⟩ => ⟨S4x4096x4096, .f32⟩
  | .hbm, ⟨24, _⟩ => ⟨S4x4096x512, .f32⟩
  | .hbm, ⟨25, _⟩ => ⟨S4x4096x512, .f32⟩
  | .hbm, ⟨26, _⟩ => ⟨S4x512x4096, .f32⟩
  | .hbm, ⟨27, _⟩ => ⟨S4x512x64x64, .f32⟩
  | _, _ => ⟨S4x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  shapeCasts_S4x512x64x64_S4x512x4096 : S4x512x64x64.ShapeCasts S4x512x4096
  transposes_S4x512x4096_S4x4096x512_0_2_1 : S4x512x4096.Transposes [0, 2, 1] S4x4096x512
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  transposes_S4x4096x512_S4x512x4096_0_2_1 : S4x4096x512.Transposes [0, 2, 1] S4x512x4096
  shapeCasts_S4x512x4096_S4x512x64x64 : S4x512x4096.ShapeCasts S4x512x64x64
  dot_S4x4096x512_S512x512_S4x4096x512_2_1_01_0_n_n_wf : DotDims.WF S4x4096x512 S512x512 S4x4096x512 [2] [1] [0, 1] [0] [] []
  dot_S4x4096x512_S4x4096x512_S4x4096x4096_2_2_1_1_0_0_wf : DotDims.WF S4x4096x512 S4x4096x512 S4x4096x4096 [2] [2] [1] [1] [0] [0]
  dot_S4x4096x4096_S4x4096x512_S4x4096x512_2_1_1_2_0_0_wf : DotDims.WF S4x4096x4096 S4x4096x512 S4x4096x512 [2] [1] [1] [2] [0] [0]

variable [Facts₀]

def dot_S4x4096x512_S512x512_S4x4096x512_2_1_01_0_n_n : DotDims S4x4096x512 S512x512 S4x4096x512 where
  lhsContracting := [2]
  rhsContracting := [1]
  lhsNonContracting := [0, 1]
  rhsNonContracting := [0]
  lhsBatch := []
  rhsBatch := []
  wf := dot_S4x4096x512_S512x512_S4x4096x512_2_1_01_0_n_n_wf
def dot_S4x4096x512_S4x4096x512_S4x4096x4096_2_2_1_1_0_0 : DotDims S4x4096x512 S4x4096x512 S4x4096x4096 where
  lhsContracting := [2]
  rhsContracting := [2]
  lhsNonContracting := [1]
  rhsNonContracting := [1]
  lhsBatch := [0]
  rhsBatch := [0]
  wf := dot_S4x4096x512_S4x4096x512_S4x4096x4096_2_2_1_1_0_0_wf
def dot_S4x4096x4096_S4x4096x512_S4x4096x512_2_1_1_2_0_0 : DotDims S4x4096x4096 S4x4096x512 S4x4096x512 where
  lhsContracting := [2]
  rhsContracting := [1]
  lhsNonContracting := [1]
  rhsNonContracting := [2]
  lhsBatch := [0]
  rhsBatch := [0]
  wf := dot_S4x4096x4096_S4x4096x512_S4x4096x512_2_1_1_2_0_0_wf

class Facts : Prop extends Facts₀ where

variable [Facts]
-- ==== Proof.Blocks.lean ====
/-
  Where the pipeline's blocks sit in their arrays, and what the arrays hold when the region is entered. The
  grid is (batch element, query tile): point `t` is batch element `t / 8`, tile `t % 8`. The token window's
  block at `t` is batch element `t / 8` of the token array, whole; the two weight windows are their arrays,
  whole; the output window's block is rows `512·(t % 8) …` of batch element `t / 8`. The token array is the
  input reshaped to `[4, 512, 4096]`, its last two axes swapped, rounded; the weights are the inputs rounded.
-/
import proofs.«126731_j68066641707351_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-- The printed index maps and the tile coordinate, decided over the 32 grid points. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 8 ∧ win0_3.index t (1 : Fin 3) = t.val % 8 ∧ win0_3.index t (2 : Fin 3) = 0
    ∧ ((grid0.coords t) 1).val = t.val % 8 :=
  (by decide +kernel : ∀ t : Fin grid0.N, _)

/-- The batch element of grid point `t`. -/
def bOf (t : ℕ) (h : t < cfg0.N) : Fin 4 := ⟨t / 8, by have hN : cfg0.N = 32 := N_0; omega⟩
/-- The query tile of grid point `t`. -/
def qOf (t : ℕ) (h : t < cfg0.N) : Fin 8 := ⟨t % 8, by omega⟩

/-- Token `n`, channel `ch` of batch element `b`, as the region finds the token array. -/
def tokK (c : Dev nD) (b : Fin 4) (n : Fin 4096) (ch : Fin 512) : EReal := V m c main_v2 (ix3 b n ch)
/-- The query weights as the region finds them. -/
def w1K (c : Dev nD) (d ch : Fin 512) : EReal := V m c main_v3 (ix2 d ch)
/-- The value weights as the region finds them. -/
def w2K (c : Dev nD) (d ch : Fin 512) : EReal := V m c main_v4 (ix2 d ch)

/-- The token window's block at point `t` is batch element `t / 8`. -/
theorem iblk0_apply (c : Dev nD) (t : Fin cfg0.N) (n : Fin 4096) (ch : Fin 512) :
    (iblk m c 0 t : Vec Ideal S1x4096x512 .bf16) (ix3 (0 : Fin 1) n ch) = tokK m c (bOf t.val t.isLt) n ch := by
  obtain ⟨e0, e1, e2, -⟩ := idx_facts t
  unfold iblk tokK bOf
  rw [View.read_apply]
  show V m c main_v2 (((cfg0.win 0).blk t).view.emb (ix3 (0 : Fin 1) n ch)) = V m c main_v2 (ix3 _ n ch)
  refine congrArg (V m c main_v2) (funext fun a => Fin.ext ?_)
  match a with
  | ⟨0, _⟩ => show win0_0.index t (0 : Fin 3) * 1 + 1 * 0 = t.val / 8; omega
  | ⟨1, _⟩ => show win0_0.index t (1 : Fin 3) * 4096 + 1 * n.val = n.val; omega
  | ⟨2, _⟩ => show win0_0.index t (2 : Fin 3) * 512 + 1 * ch.val = ch.val; omega

/-- The query-weight window's block is its whole array. -/
theorem iblk1_apply (c : Dev nD) (t : Fin cfg0.N) (d ch : Fin 512) :
    (iblk m c 1 t : Vec Ideal S512x512 .bf16) (ix2 d ch) = w1K m c d ch := by
  obtain ⟨-, -, -, e0, e1, -⟩ := idx_facts t
  unfold iblk w1K
  rw [View.read_apply]
  show V m c main_v3 (((cfg0.win 1).blk t).view.emb (ix2 d ch)) = V m c main_v3 (ix2 d ch)
  refine congrArg (V m c main_v3) (funext fun a => Fin.ext ?_)
  match a with
  | ⟨0, _⟩ => show win0_1.index t (0 : Fin 2) * 512 + 1 * d.val = d.val; omega
  | ⟨1, _⟩ => show win0_1.index t (1 : Fin 2) * 512 + 1 * ch.val = ch.val; omega

/-- The value-weight window's block is its whole array. -/
theorem iblk2_apply (c : Dev nD) (t : Fin cfg0.N) (d ch : Fin 512) :
    (iblk m c 2 t : Vec Ideal S512x512 .bf16) (ix2 d ch) = w2K m c d ch := by
  obtain ⟨-, -, -, -, -, e0, e1, -⟩ := idx_facts t
  unfold iblk w2K
  rw [View.read_apply]
  show V m c main_v4 (((cfg0.win 2).blk t).view.emb (ix2 d ch)) = V m c main_v4 (ix2 d ch)
  refine congrArg (V m c main_v4) (funext fun a => Fin.ext ?_)
  match a with
  | ⟨0, _⟩ => show win0_2.index t (0 : Fin 2) * 512 + 1 * d.val = d.val; omega
  | ⟨1, _⟩ => show win0_2.index t (1 : Fin 2) * 512 + 1 * ch.val = ch.val; omega

/-! ## The arrays at the region's entry -/

/-- The input as tokens: reshaped to `[4, 512, 4096]`, the last two axes swapped. -/
def headK (x : S4x512x64x64.Idx → EReal) : S4x4096x512.Idx → EReal :=
  transpose S4x4096x512 [0, 2, 1] (shapeCast S4x512x4096 x shapeCasts_S4x512x64x64_S4x512x4096)
    transposes_S4x512x4096_S4x4096x512_0_2_1

/-- The token array is the input as tokens (the rounding is the identity at the ideal values). -/
theorem V_v2 (c : Dev nD) (i : S4x4096x512.Idx) :
    V m c main_v2 i = headK (m ((c : Thread nD τ).loc main_arg0)) i := by
  have e : V m c main_v2 = truncf .bf16 (transpose S4x4096x512 [0, 2, 1]
      (shapeCast S4x512x4096 (m ((c : Thread nD τ).loc main_arg0)) shapeCasts_S4x512x64x64_S4x512x4096)
      transposes_S4x512x4096_S4x4096x512_0_2_1 : FVec Ideal S4x4096x512 .f32) bitsLt_bf16_f32 := by
    show StableHlo.after hostOps0 (fun b => m (c, b)) (Proc.devRef .tc main_v2) = _
    after_results; rfl
  rw [e]; rfl

theorem V_v3 (c : Dev nD) (i : S512x512.Idx) : V m c main_v3 i = m ((c : Thread nD τ).loc main_arg1) i := by
  have e : V m c main_v3 = truncf (F := Ideal) (s := S512x512) (φ := .f32) .bf16 (m ((c : Thread nD τ).loc main_arg1)) bitsLt_bf16_f32 := by
    show StableHlo.after hostOps0 (fun b => m (c, b)) (Proc.devRef .tc main_v3) = _
    after_results
  rw [e]; rfl

theorem V_v4 (c : Dev nD) (i : S512x512.Idx) : V m c main_v4 i = m ((c : Thread nD τ).loc main_arg2) i := by
  have e : V m c main_v4 = truncf (F := Ideal) (s := S512x512) (φ := .f32) .bf16 (m ((c : Thread nD τ).loc main_arg2)) bitsLt_bf16_f32 := by
    show StableHlo.after hostOps0 (fun b => m (c, b)) (Proc.devRef .tc main_v4) = _
    after_results
  rw [e]; rfl

end Cert.KernelIdeal.Blocks

end
-- ==== Proof.Pieces.lean ====
/-
  What one run of the body leaves, as values of its loads. At the first query tile of a batch element the
  body computes the value projection of the whole staged block into the scratch and then the output tile
  from it; at the other tiles it computes the output tile from the scratch as it finds it. In both cases the
  query tile is the 512 rows of the staged block that start at row 512·(tile number).
-/
import proofs.«126731_j68066641707351_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The query tile at grid point `i`: 512 consecutive rows of the staged `[1, 4096, 512]` block. -/
def qtile (i : grid0.Coords) (x0 : Vec F S1x4096x512 .bf16) : Vec F S1x512x512 .bf16 :=
  View.ld x0 (Rect.unit (s := S1x4096x512) (k0_off1 i) S1x512x512.size (k0_off1_inb i))

/-- First tile of a batch element: the scratch ends at the value projection of the staged block. -/
theorem sout_A (c : Dev nD) (i : grid0.Coords) (arg2 : Memref sig .tc .vmem S1x4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S1x512x512 .f32) (harg5 : arg5.IsWhole) (arg6 : Memref sig .tc .vmem S4096x512 .bf16) (harg6 : arg6.IsWhole) (hc0 : cond0_0 i)
    (x0 : Vec F S1x4096x512 .bf16) (x1 : Vec F S512x512 .bf16) (x2 : Vec F S512x512 .bf16) :
    sout0_A_0 c i arg2 harg2 arg3 harg3 arg4 harg4 arg5 harg5 arg6 harg6 hc0 x0 x1 x2 = k0_pay2 x0 x2 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_run_names
  rw [View.canon_unit_zero hz2]
  simp only [View.readAt_eq_ld, harg2.read_unread, harg4.read_unread, View.ld_unit_zero (S := S1x4096x512) hz3,
    View.ld_unit_zero (S := S512x512) hz2]

/-- First tile of a batch element: the output tile, computed from the scratch just written. -/
theorem out_A (c : Dev nD) (i : grid0.Coords) (arg2 : Memref sig .tc .vmem S1x4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S1x512x512 .f32) (harg5 : arg5.IsWhole) (arg6 : Memref sig .tc .vmem S4096x512 .bf16) (harg6 : arg6.IsWhole) (hc0 : cond0_0 i)
    (x0 : Vec F S1x4096x512 .bf16) (x1 : Vec F S512x512 .bf16) (x2 : Vec F S512x512 .bf16) :
    out0_A_3 c i arg2 harg2 arg3 harg3 arg4 harg4 arg5 harg5 arg6 harg6 hc0 x0 x1 x2 = k0_pay1 (k0_pay3 (qtile i x0) x1 x0 (k0_pay2 x0 x2)) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_run_names
  rw [View.canon_unit_zero hz3]
  simp only [View.readCov_unit_zero (S := S4096x512) _ hz2, View.readAt_eq_ld, harg2.read_unread, harg3.read_unread,
    harg4.read_unread, View.ld_unit_zero (S := S1x4096x512) hz3, View.ld_unit_zero (S := S512x512) hz2]
  rfl

/-- Any other tile: the output tile, computed from the scratch as the point before left it. -/
theorem out_B (c : Dev nD) (i : grid0.Coords) (arg2 : Memref sig .tc .vmem S1x4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S1x512x512 .f32) (harg5 : arg5.IsWhole) (arg6 : Memref sig .tc .vmem S4096x512 .bf16) (harg6 : arg6.IsWhole) (hc0 : ¬cond0_0 i)
    (x0 : Vec F S1x4096x512 .bf16) (x1 : Vec F S512x512 .bf16) (x2 : Vec F S512x512 .bf16) (xs0 : Vec F S4096x512 .bf16) :
    out0_B_3 c i arg2 harg2 arg3 harg3 arg4 harg4 arg5 harg5 arg6 harg6 hc0 x0 x1 x2 xs0 = k0_pay1 (k0_pay3 (qtile i x0) x1 x0 xs0) := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_run_names
  rw [View.canon_unit_zero hz3]
  simp only [View.readAt_eq_ld, harg2.read_unread, harg3.read_unread, harg6.read_unread,
    View.ld_unit_zero (S := S1x4096x512) hz3, View.ld_unit_zero (S := S512x512) hz2, View.ld_unit_zero (S := S4096x512) hz2]
  rfl

end Cert.KernelIdeal.Pieces

end
-- ==== Proof.Products.lean ====
/-
  The body's four matrix products read at an index, at the ideal values. Each contracts one axis, so into the
  zero accumulator it is the sum over that axis's coordinate `k` of the left operand at `(r, k)` times the
  right operand at `(k, c)`: no rounding and no order of accumulation is left in it.
-/
import proofs.«126731_j68066641707351_1_alg».proof.Proof.Gen.KernelIdeal
import Idealize.ShloMosaic.Lib.ValueIdx
import Idealize.ShloMosaic.PureOps.Ideal.Laws

noncomputable section

open scoped BigOperators

namespace Cert.KernelIdeal.Products

open Cert.KernelIdeal Cert.KernelIdeal.Gen Idealize.ShloMosaic Idealize.ShloMosaic.ValueIdx

/-- A matrix product into the zero accumulator with ONE contracted axis of extent `K`, read at `j`: the sum over
    that axis's coordinate of the operands at the indices `L k`, `R k` the dimension numbers name. -/
theorem matmul_zero_at {sl sr so : Shape} {φ₁ φ₂ : FTy} (D : DotDims sl sr so) (K : ℕ) (hr : D.contr.rank = 1)
    (hs : D.contr.size ⟨0, by omega⟩ = K) (A : FVec Ideal sl φ₁) (B : FVec Ideal sr φ₂) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    matmul D none A B (constant (F := Ideal) so .f32 0x00000000#32) j = ∑ k : Fin K, A (L k) * B (R k) := by
  simp only [matmul]
  rw [Ideal.matmul_constant_zero_apply, ← Equiv.sum_comp (contrEquiv1 D K hr hs).symm]
  exact Finset.sum_congr rfl fun k _ => by rw [hL k, hR k]

/-! ### The value projection's product: `[4096, 512] × [512, 512]`. -/

theorem mm_v_l0 (j : S4096x512.Idx) (q : dot_S4096x512_S512x512_S4096x512_1_0_0_1_n_n.contr.Idx) : (dot_S4096x512_S512x512_S4096x512_1_0_0_1_n_n.lhsIdx j q 0).val = (j 0).val := by
  unfold DotDims.lhsIdx
  rw [dif_neg (show ¬(0 : Fin S4096x512.rank) ∈ dot_S4096x512_S512x512_S4096x512_1_0_0_1_n_n.lhsBatch by decide),
    dif_pos (show (0 : Fin S4096x512.rank) ∈ dot_S4096x512_S512x512_S4096x512_1_0_0_1_n_n.lhsNonContracting by decide)]
  rfl
theorem mm_v_l1 (j : S4096x512.Idx) (q : dot_S4096x512_S512x512_S4096x512_1_0_0_1_n_n.contr.Idx) : (dot_S4096x512_S512x512_S4096x512_1_0_0_1_n_n.lhsIdx j q 1).val = (q ⟨0, by decide⟩).val :=
  dot_S4096x512_S512x512_S4096x512_1_0_0_1_n_n.lhsIdx_val_of_single rfl j q
theorem mm_v_r0 (j : S4096x512.Idx) (q : dot_S4096x512_S512x512_S4096x512_1_0_0_1_n_n.contr.Idx) : (dot_S4096x512_S512x512_S4096x512_1_0_0_1_n_n.rhsIdx j q 0).val = (q ⟨0, by decide⟩).val :=
  dot_S4096x512_S512x512_S4096x512_1_0_0_1_n_n.rhsIdx_val_of_single rfl j q
theorem mm_v_r1 (j : S4096x512.Idx) (q : dot_S4096x512_S512x512_S4096x512_1_0_0_1_n_n.contr.Idx) : (dot_S4096x512_S512x512_S4096x512_1_0_0_1_n_n.rhsIdx j q 1).val = (j 1).val := by
  unfold DotDims.rhsIdx
  rw [dif_neg (show ¬(1 : Fin S512x512.rank) ∈ dot_S4096x512_S512x512_S4096x512_1_0_0_1_n_n.rhsBatch by decide),
    dif_pos (show (1 : Fin S512x512.rank) ∈ dot_S4096x512_S512x512_S4096x512_1_0_0_1_n_n.rhsNonContracting by decide)]
  rfl

theorem mm_v (A : FVec Ideal S4096x512 .bf16) (B : FVec Ideal S512x512 .bf16) (r : Fin 4096) (c : Fin 512) :
    matmul dot_S4096x512_S512x512_S4096x512_1_0_0_1_n_n none A B (constant (F := Ideal) S4096x512 .f32 0x00000000#32) (ix2 r c)
      = ∑ k : Fin 512, A (ix2 r k) * B (ix2 k c) := by
  refine matmul_zero_at dot_S4096x512_S512x512_S4096x512_1_0_0_1_n_n 512 rfl rfl A B (ix2 r c) (fun k => ix2 r k) (fun k => ix2 k c) (fun k => ?_) (fun k => ?_)
  · have hk := contrEquiv1_symm_val dot_S4096x512_S512x512_S4096x512_1_0_0_1_n_n 512 rfl rfl k
    exact funext fun a => Fin.ext (by
      match a with
      | ⟨0, _⟩ => exact mm_v_l0 _ _
      | ⟨1, _⟩ => exact (mm_v_l1 _ _).trans hk)
  · have hk := contrEquiv1_symm_val dot_S4096x512_S512x512_S4096x512_1_0_0_1_n_n 512 rfl rfl k
    exact funext fun a => Fin.ext (by
      match a with
      | ⟨0, _⟩ => exact (mm_v_r0 _ _).trans hk
      | ⟨1, _⟩ => exact mm_v_r1 _ _)

/-! ### The query projection's product: `[512, 512] × [512, 512]`. -/

theorem mm_q_l0 (j : S512x512.Idx) (q : dot_S512x512_S512x512_S512x512_1_0_0_1_n_n.contr.Idx) : (dot_S512x512_S512x512_S512x512_1_0_0_1_n_n.lhsIdx j q 0).val = (j 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
theorem mm_q_l1 (j : S512x512.Idx) (q : dot_S512x512_S512x512_S512x512_1_0_0_1_n_n.contr.Idx) : (dot_S512x512_S512x512_S512x512_1_0_0_1_n_n.lhsIdx j q 1).val = (q ⟨0, by decide⟩).val :=
  dot_S512x512_S512x512_S512x512_1_0_0_1_n_n.lhsIdx_val_of_single rfl j q
theorem mm_q_r0 (j : S512x512.Idx) (q : dot_S512x512_S512x512_S512x512_1_0_0_1_n_n.contr.Idx) : (dot_S512x512_S512x512_S512x512_1_0_0_1_n_n.rhsIdx j q 0).val = (q ⟨0, by decide⟩).val :=
  dot_S512x512_S512x512_S512x512_1_0_0_1_n_n.rhsIdx_val_of_single rfl j q
theorem mm_q_r1 (j : S512x512.Idx) (q : dot_S512x512_S512x512_S512x512_1_0_0_1_n_n.contr.Idx) : (dot_S512x512_S512x512_S512x512_1_0_0_1_n_n.rhsIdx j q 1).val = (j 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

theorem mm_q (A : FVec Ideal S512x512 .bf16) (B : FVec Ideal S512x512 .bf16) (r : Fin 512) (c : Fin 512) :
    matmul dot_S512x512_S512x512_S512x512_1_0_0_1_n_n none A B (constant (F := Ideal) S512x512 .f32 0x00000000#32) (ix2 r c)
      = ∑ k : Fin 512, A (ix2 r k) * B (ix2 k c) := by
  refine matmul_zero_at dot_S512x512_S512x512_S512x512_1_0_0_1_n_n 512 rfl rfl A B (ix2 r c) (fun k => ix2 r k) (fun k => ix2 k c) (fun k => ?_) (fun k => ?_)
  · have hk := contrEquiv1_symm_val dot_S512x512_S512x512_S512x512_1_0_0_1_n_n 512 rfl rfl k
    exact funext fun a => Fin.ext (by
      match a with
      | ⟨0, _⟩ => exact mm_q_l0 _ _
      | ⟨1, _⟩ => exact (mm_q_l1 _ _).trans hk)
  · have hk := contrEquiv1_symm_val dot_S512x512_S512x512_S512x512_1_0_0_1_n_n 512 rfl rfl k
    exact funext fun a => Fin.ext (by
      match a with
      | ⟨0, _⟩ => exact (mm_q_r0 _ _).trans hk
      | ⟨1, _⟩ => exact mm_q_r1 _ _)

/-! ### The logits' product: `[512, 512] × [512, 4096]`. -/

theorem mm_s_l0 (j : S512x4096.Idx) (q : dot_S512x512_S512x4096_S512x4096_1_0_0_1_n_n.contr.Idx) : (dot_S512x512_S512x4096_S512x4096_1_0_0_1_n_n.lhsIdx j q 0).val = (j 0).val := by
  unfold DotDims.lhsIdx
  rw [dif_neg (show ¬(0 : Fin S512x512.rank) ∈ dot_S512x512_S512x4096_S512x4096_1_0_0_1_n_n.lhsBatch by decide),
    dif_pos (show (0 : Fin S512x512.rank) ∈ dot_S512x512_S512x4096_S512x4096_1_0_0_1_n_n.lhsNonContracting by decide)]
  rfl
theorem mm_s_l1 (j : S512x4096.Idx) (q : dot_S512x512_S512x4096_S512x4096_1_0_0_1_n_n.contr.Idx) : (dot_S512x512_S512x4096_S512x4096_1_0_0_1_n_n.lhsIdx j q 1).val = (q ⟨0, by decide⟩).val :=
  dot_S512x512_S512x4096_S512x4096_1_0_0_1_n_n.lhsIdx_val_of_single rfl j q
theorem mm_s_r0 (j : S512x4096.Idx) (q : dot_S512x512_S512x4096_S512x4096_1_0_0_1_n_n.contr.Idx) : (dot_S512x512_S512x4096_S512x4096_1_0_0_1_n_n.rhsIdx j q 0).val = (q ⟨0, by decide⟩).val :=
  dot_S512x512_S512x4096_S512x4096_1_0_0_1_n_n.rhsIdx_val_of_single rfl j q
theorem mm_s_r1 (j : S512x4096.Idx) (q : dot_S512x512_S512x4096_S512x4096_1_0_0_1_n_n.contr.Idx) : (dot_S512x512_S512x4096_S512x4096_1_0_0_1_n_n.rhsIdx j q 1).val = (j 1).val := by
  unfold DotDims.rhsIdx
  rw [dif_neg (show ¬(1 : Fin S512x4096.rank) ∈ dot_S512x512_S512x4096_S512x4096_1_0_0_1_n_n.rhsBatch by decide),
    dif_pos (show (1 : Fin S512x4096.rank) ∈ dot_S512x512_S512x4096_S512x4096_1_0_0_1_n_n.rhsNonContracting by decide)]
  rfl

theorem mm_s (A : FVec Ideal S512x512 .bf16) (B : FVec Ideal S512x4096 .bf16) (r : Fin 512) (c : Fin 4096) :
    matmul dot_S512x512_S512x4096_S512x4096_1_0_0_1_n_n none A B (constant (F := Ideal) S512x4096 .f32 0x00000000#32) (ix2 r c)
      = ∑ k : Fin 512, A (ix2 r k) * B (ix2 k c) := by
  refine matmul_zero_at dot_S512x512_S512x4096_S512x4096_1_0_0_1_n_n 512 rfl rfl A B (ix2 r c) (fun k => ix2 r k) (fun k => ix2 k c) (fun k => ?_) (fun k => ?_)
  · have hk := contrEquiv1_symm_val dot_S512x512_S512x4096_S512x4096_1_0_0_1_n_n 512 rfl rfl k
    exact funext fun a => Fin.ext (by
      match a with
      | ⟨0, _⟩ => exact mm_s_l0 _ _
      | ⟨1, _⟩ => exact (mm_s_l1 _ _).trans hk)
  · have hk := contrEquiv1_symm_val dot_S512x512_S512x4096_S512x4096_1_0_0_1_n_n 512 rfl rfl k
    exact funext fun a => Fin.ext (by
      match a with
      | ⟨0, _⟩ => exact (mm_s_r0 _ _).trans hk
      | ⟨1, _⟩ => exact mm_s_r1 _ _)

/-! ### The output's product: `[512, 4096] × [4096, 512]`. -/

theorem mm_o_l0 (j : S512x512.Idx) (q : dot_S512x4096_S4096x512_S512x512_1_0_0_1_n_n.contr.Idx) : (dot_S512x4096_S4096x512_S512x512_1_0_0_1_n_n.lhsIdx j q 0).val = (j 0).val := by
  unfold DotDims.lhsIdx
  rw [dif_neg (show ¬(0 : Fin S512x4096.rank) ∈ dot_S512x4096_S4096x512_S512x512_1_0_0_1_n_n.lhsBatch by decide),
    dif_pos (show (0 : Fin S512x4096.rank) ∈ dot_S512x4096_S4096x512_S512x512_1_0_0_1_n_n.lhsNonContracting by decide)]
  rfl
theorem mm_o_l1 (j : S512x512.Idx) (q : dot_S512x4096_S4096x512_S512x512_1_0_0_1_n_n.contr.Idx) : (dot_S512x4096_S4096x512_S512x512_1_0_0_1_n_n.lhsIdx j q 1).val = (q ⟨0, by decide⟩).val :=
  dot_S512x4096_S4096x512_S512x512_1_0_0_1_n_n.lhsIdx_val_of_single rfl j q
theorem mm_o_r0 (j : S512x512.Idx) (q : dot_S512x4096_S4096x512_S512x512_1_0_0_1_n_n.contr.Idx) : (dot_S512x4096_S4096x512_S512x512_1_0_0_1_n_n.rhsIdx j q 0).val = (q ⟨0, by decide⟩).val :=
  dot_S512x4096_S4096x512_S512x512_1_0_0_1_n_n.rhsIdx_val_of_single rfl j q
theorem mm_o_r1 (j : S512x512.Idx) (q : dot_S512x4096_S4096x512_S512x512_1_0_0_1_n_n.contr.Idx) : (dot_S512x4096_S4096x512_S512x512_1_0_0_1_n_n.rhsIdx j q 1).val = (j 1).val := by
  unfold DotDims.rhsIdx
  rw [dif_neg (show ¬(1 : Fin S4096x512.rank) ∈ dot_S512x4096_S4096x512_S512x512_1_0_0_1_n_n.rhsBatch by decide),
    dif_pos (show (1 : Fin S4096x512.rank) ∈ dot_S512x4096_S4096x512_S512x512_1_0_0_1_n_n.rhsNonContracting by decide)]
  rfl

theorem mm_o (A : FVec Ideal S512x4096 .bf16) (B : FVec Ideal S4096x512 .bf16) (r : Fin 512) (c : Fin 512) :
    matmul dot_S512x4096_S4096x512_S512x512_1_0_0_1_n_n none A B (constant (F := Ideal) S512x512 .f32 0x00000000#32) (ix2 r c)
      = ∑ k : Fin 4096, A (ix2 r k) * B (ix2 k c) := by
  refine matmul_zero_at dot_S512x4096_S4096x512_S512x512_1_0_0_1_n_n 4096 rfl rfl A B (ix2 r c) (fun k => ix2 r k) (fun k => ix2 k c) (fun k => ?_) (fun k => ?_)
  · have hk := contrEquiv1_symm_val dot_S512x4096_S4096x512_S512x512_1_0_0_1_n_n 4096 rfl rfl k
    exact funext fun a => Fin.ext (by
      match a with
      | ⟨0, _⟩ => exact mm_o_l0 _ _
      | ⟨1, _⟩ => exact (mm_o_l1 _ _).trans hk)
  · have hk := contrEquiv1_symm_val dot_S512x4096_S4096x512_S512x512_1_0_0_1_n_n 4096 rfl rfl k
    exact funext fun a => Fin.ext (by
      match a with
      | ⟨0, _⟩ => exact (mm_o_r0 _ _).trans hk
      | ⟨1, _⟩ => exact mm_o_r1 _ _)

end Cert.KernelIdeal.Products

end
-- ==== Proof.Spec.lean ====
/-
  Single-head self-attention over the extended reals, one query row at a time: the function both programs
  compute. For a batch element with token features `Fb : 4096 × 512` and weights `W1`, `W2 : 512 × 512`,
    q n d   = ∑ c, Fb n c · W1 d c                      (the query projection)
    s n m   = (∑ d, q n d · Fb m d) · scale              (the scaled logits)
    p n m   = exp (s n m − max_m s n ·) / ∑ m', exp (s n m' − max …)   (the row softmax)
    v m d   = ∑ c, Fb m c · W2 d c                       (the value projection)
    out n d = ∑ m, p n m · v m d.
  The maximum starts from −∞ and is taken once more against −∞, as both programs do; no sum is re-associated
  and no factor moved, so nothing here needs the inputs to be finite.
-/
import Idealize.ShloMosaic.PureOps.Ideal
import Idealize.ShloMosaic.PureOps.Ideal.Laws
import Idealize.ShloMosaic.Lib.ValueIdx

noncomputable section

open scoped BigOperators

namespace Cert.Attn

open Idealize.ShloMosaic

/-- −∞: the value a row maximum starts from. -/
def ninf : EReal := Ideal.ofBits .f32 0xFF800000#32

/-- The logits' scale: the f32 nearest 512^(−1/2), the same word in both programs. -/
def scale : EReal := Ideal.ofBits .f32 0x3D3504F3#32

/-- A row's maximum, from −∞, compared with −∞ once more. -/
def rmax (s : Fin 4096 → EReal) : EReal := max ninf (Finset.univ.fold max ninf s)

/-- The shifted exponential of entry `m` of a row of logits. -/
def wexp (s : Fin 4096 → EReal) (m : Fin 4096) : EReal := Ideal.exp (s m - rmax s)

/-- A row of logits `s` turned into softmax weights and applied to a column of values `v`. -/
def rowOut (s v : Fin 4096 → EReal) : EReal :=
  ∑ m : Fin 4096, Ideal.div (wexp s m) (∑ m' : Fin 4096, wexp s m') * v m

/-- The scaled logit of a query token (features `fq`) against a key token (features `fk`). -/
def score (fq : Fin 512 → EReal) (W1 : Fin 512 → Fin 512 → EReal) (fk : Fin 512 → EReal) : EReal :=
  (∑ d : Fin 512, (∑ c : Fin 512, fq c * W1 d c) * fk d) * scale

/-- Channel `d` of the value projection of a token with features `fk`. -/
def value (fk : Fin 512 → EReal) (W2 : Fin 512 → Fin 512 → EReal) (d : Fin 512) : EReal :=
  ∑ c : Fin 512, fk c * W2 d c

/-- Attention output for query token `n`, channel `d`, of one batch element. -/
def attn (Fb : Fin 4096 → Fin 512 → EReal) (W1 W2 : Fin 512 → Fin 512 → EReal) (n : Fin 4096) (d : Fin 512) : EReal :=
  rowOut (fun m => score (Fb n) W1 (Fb m)) (fun m => value (Fb m) W2 d)

/-- The whole `[4, 4096, 512]` attention output as one function of the token array `f : [4, 4096, 512]` and the two
    weight matrices: entry `(b, n, d)` is `attn` of batch element `b`. -/
def whole (f : (⟨3, ![4, 4096, 512]⟩ : Shape).Idx → EReal) (w1 w2 : (⟨2, ![512, 512]⟩ : Shape).Idx → EReal) :
    (⟨3, ![4, 4096, 512]⟩ : Shape).Idx → EReal := fun j =>
  attn (fun n ch => f (ValueIdx.ix3 (j 0) n ch)) (fun d ch => w1 (ValueIdx.ix2 d ch)) (fun d ch => w2 (ValueIdx.ix2 d ch)) (j 1) (j 2)

end Cert.Attn

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.Payload.lean ====
/-
  The body's arithmetic read at an index, at the ideal values. The value projection at `(m, d)` is the sum
  over the 512 input channels; the output tile at `(r, d)` is the softmax-weighted sum over the 4096 keys,
  `Cert.Attn.rowOut` of the query row's scaled logits and the scratch's column `d`. A change of float format
  is the identity; the row maximum is the fold of `max` from −∞ over the key axis; the row sum is the sum over
  the key axis; both come back over the row through a column cast and a broadcast along the row.
-/
import proofs.«126731_j68066641707351_1_alg».proof.Proof.Gen.KernelIdeal.Skeleton
import proofs.«126731_j68066641707351_1_alg».proof.Proof.Products
import proofs.«126731_j68066641707351_1_alg».proof.Proof.Spec
import proofs.«126731_j68066641707351_1_alg».proof.Proof.LibKeepdims
import Idealize.ShloMosaic.Lib.ValueLayout
import Idealize.ShloMosaic.PureOps.Ideal.Laws

noncomputable section

open scoped BigOperators

namespace Cert.KernelIdeal.Payload

open Cert.KernelIdeal Cert.KernelIdeal.Gen Cert.KernelIdeal.Products Idealize.ShloMosaic Idealize.ShloMosaic.ValueIdx Cert.Attn Cert.LibKeepdims

/-- Rounding an f32 vector to bf16 changes nothing at the ideal values. -/
theorem narrow_apply {s : Shape} (a : FVec Ideal s .f32) (h : FTy.bits .bf16 < FTy.bits .f32) (i : s.Idx) :
    (truncf .bf16 a h : FVec Ideal s .bf16) i = a i := rfl

/-! ## The two projections -/

/-- A token block `[1, n, 512]` times the transposed weight matrix, rounded: token `r`, output channel `d`. -/
def projQ (v6 : Vec Ideal S1x512x512 .bf16) (v8 : Vec Ideal S512x512 .bf16) : FVec Ideal S512x512 .bf16 :=
  have v7 : FVec Ideal S512x512 .bf16 := shapeCast S512x512 v6 shapeCasts_S1x512x512_S512x512
  have v9 : FVec Ideal S512x512 .bf16 := shapeCast S512x512 v8 shapeCasts_S512x512_S512x512
  have v10 : FVec Ideal S512x512 .bf16 := transpose S512x512 [1, 0] v9 transposes_S512x512_p1_0_S512x512
  have cst : FVec Ideal S512x512 .f32 := constant S512x512 .f32 0x00000000#32
  have v11 : FVec Ideal S512x512 .f32 := matmul dot_S512x512_S512x512_S512x512_1_0_0_1_n_n none v7 v10 cst
  truncf .bf16 v11 bitsLt_bf16_f32

theorem projQ_apply (v6 : Vec Ideal S1x512x512 .bf16) (v8 : Vec Ideal S512x512 .bf16) (r d : Fin 512) :
    projQ v6 v8 (ix2 r d) = ∑ c : Fin 512, v6 (ix3 (0 : Fin 1) r c) * v8 (ix2 d c) := by
  unfold projQ
  try dsimp only
  refine (narrow_apply _ _ _).trans ?_
  refine (mm_q _ _ r d).trans (Finset.sum_congr rfl fun c _ => ?_)
  refine congrArg₂ (· * ·) (shapeCast_1ab_ab_apply v6 _ r c) ?_
  exact (transpose_ix2_apply _ _ c d).trans (congrFun (shapeCast_self v8 _) _)

/-- The scratch's contents after a batch element's first tile, at `(m, d)`: channel `d` of the value projection of
    token `m` of the staged block. -/
theorem pay2_apply (v36 : Vec Ideal S1x4096x512 .bf16) (v38 : Vec Ideal S512x512 .bf16) (m : Fin 4096) (d : Fin 512) :
    k0_pay2 (F := Ideal) v36 v38 (ix2 m d)
      = value (fun c => v36 (ix3 (0 : Fin 1) m c)) (fun d c => v38 (ix2 d c)) d := by
  unfold k0_pay2 value
  try dsimp only
  refine (congrFun (shapeCast_self _ _) _).trans ?_
  refine (narrow_apply _ _ _).trans ?_
  refine (mm_v _ _ m d).trans (Finset.sum_congr rfl fun c _ => ?_)
  refine congrArg₂ (· * ·) (shapeCast_1ab_ab_apply v36 _ m c) ?_
  exact (transpose_ix2_apply _ _ c d).trans (congrFun (shapeCast_self v38 _) _)

/-! ## The output tile, stage by stage -/

/-- The staged block's tokens as the columns of a `[512, 4096]` matrix. -/
def keysT (v13 : Vec Ideal S1x4096x512 .bf16) : FVec Ideal S512x4096 .bf16 :=
  have v14 : FVec Ideal S4096x512 .bf16 := shapeCast S4096x512 v13 shapeCasts_S1x4096x512_S4096x512
  transpose S512x4096 [1, 0] v14 transposes_S4096x512_p1_0_S512x4096

theorem keysT_apply (v13 : Vec Ideal S1x4096x512 .bf16) (d : Fin 512) (m : Fin 4096) :
    keysT v13 (ix2 d m) = v13 (ix3 (0 : Fin 1) m d) := by
  unfold keysT
  try dsimp only
  exact (transpose_ix2_apply _ _ d m).trans (shapeCast_1ab_ab_apply v13 _ m d)

/-- The scaled logits of the query tile against every key of the staged block. -/
def logits (v6 : Vec Ideal S1x512x512 .bf16) (v8 : Vec Ideal S512x512 .bf16) (v13 : Vec Ideal S1x4096x512 .bf16) :
    FVec Ideal S512x4096 .f32 :=
  have cst_7 : FVec Ideal S512x4096 .f32 := constant S512x4096 .f32 0x00000000#32
  have v16 : FVec Ideal S512x4096 .f32 := matmul dot_S512x512_S512x4096_S512x4096_1_0_0_1_n_n none (projQ v6 v8) (keysT v13) cst_7
  have cst_8 : Ideal .f32 := Scalar.ofBits .f32 0x3D3504F3#32
  have v17 : FVec Ideal S512x4096 .f32 := broadcast S512x4096 cst_8
  mulf v16 v17

/-- The logit of query row `r` against key `m`. -/
theorem logits_apply (v6 : Vec Ideal S1x512x512 .bf16) (v8 : Vec Ideal S512x512 .bf16) (v13 : Vec Ideal S1x4096x512 .bf16)
    (r : Fin 512) (m : Fin 4096) :
    logits v6 v8 v13 (ix2 r m)
      = score (fun c => v6 (ix3 (0 : Fin 1) r c)) (fun d c => v8 (ix2 d c)) (fun c => v13 (ix3 (0 : Fin 1) m c)) := by
  unfold logits score scale
  try dsimp only
  refine (mulf_apply _ _ _).trans ?_
  refine congrArg₂ (· * ·) ?_ rfl
  refine (mm_s _ _ r m).trans (Finset.sum_congr rfl fun d _ => ?_)
  exact congrArg₂ (· * ·) (projQ_apply v6 v8 r d) (keysT_apply v13 d m)

/-- The key-axis coordinate put back into a row index. -/
theorem lift_row (r : Fin 512) (k : Fin 4096) : reduces_S512x4096_S512.lift (ix1 r) k = ix2 r k :=
  funext fun a => Fin.ext (by match a with | ⟨0, _⟩ => rfl | ⟨1, _⟩ => rfl)

/-- A per-row quantity `[512]` spread back over the row's 4096 entries. -/
def overRow (q : FVec Ideal S512 .f32) : FVec Ideal S512x4096 .f32 :=
  have v22 : FVec Ideal S512x1 .f32 := shapeCast S512x1 q shapeCasts_S512_S512x1
  broadcastTo S512x4096 v22 broadcasts_S512x1_S512x4096

theorem overRow_apply (q : FVec Ideal S512 .f32) (r : Fin 512) (m : Fin 4096) : overRow q (ix2 r m) = q (ix1 r) := by
  unfold overRow
  try dsimp only
  exact (broadcastTo_a1_ab_apply _ _ r m).trans (shapeCast_a_a1_apply _ _ r 0)

/-- Each row's maximum, from −∞, compared with −∞ once more. -/
def rowMax (s : FVec Ideal S512x4096 .f32) : FVec Ideal S512 .f32 :=
  have v19 : FVec Ideal S512 .f32 := multiReduction .maximumf [1] S512 s 0xFF800000#32 reduces_S512x4096_S512 (.inl rfl) rfl
  have cst_10 : Ideal .f32 := Scalar.ofBits .f32 0xFF800000#32
  have v20 : FVec Ideal S512 .f32 := broadcast S512 cst_10
  maximumf v20 v19

theorem rowMax_apply (s : FVec Ideal S512x4096 .f32) (r : Fin 512) :
    rowMax s (ix1 r) = rmax (fun k => s (ix2 r k)) := by
  unfold rowMax rmax ninf
  try dsimp only
  refine (maximumf_apply _ _ _).trans ?_
  refine congrArg₂ max rfl ?_
  refine (Ideal.multiReduction_maximumf_single s 0xFF800000#32 reduces_S512x4096_S512 (.inl rfl) rfl (ix1 r)).trans ?_
  show Finset.fold max (Ideal.ofBits .f32 0xFF800000#32)
    (fun k : Fin 4096 => s (reduces_S512x4096_S512.lift (ix1 r) k)) Finset.univ = _
  simp only [lift_row]

/-- Each row's sum. -/
def rowSum (e : FVec Ideal S512x4096 .f32) : FVec Ideal S512 .f32 :=
  multiReduction .add [1] S512 e 0x00000000#32 reduces_S512x4096_S512 (.inl rfl) rfl

theorem rowSum_apply (e : FVec Ideal S512x4096 .f32) (r : Fin 512) :
    rowSum e (ix1 r) = ∑ k : Fin 4096, e (ix2 r k) := by
  unfold rowSum
  refine (Ideal.multiReduction_add_single e 0x00000000#32 reduces_S512x4096_S512 (.inl rfl) rfl (ix1 r)).trans ?_
  show ∑ k : Fin 4096, e (reduces_S512x4096_S512.lift (ix1 r) k) = _
  simp only [lift_row]

/-- Each row's entries shifted by the row's maximum and exponentiated. -/
def shiftExp (s : FVec Ideal S512x4096 .f32) : FVec Ideal S512x4096 .f32 :=
  have v24 : FVec Ideal S512x4096 .f32 := subf s (overRow (rowMax s))
  exp v24

theorem shiftExp_apply (s : FVec Ideal S512x4096 .f32) (r : Fin 512) (m : Fin 4096) :
    shiftExp s (ix2 r m) = wexp (fun k => s (ix2 r k)) m := by
  unfold shiftExp wexp
  try dsimp only
  show Ideal.exp (subf s (overRow (rowMax s)) (ix2 r m)) = _
  refine congrArg Ideal.exp ?_
  refine (subf_apply _ _ _).trans ?_
  refine congrArg₂ (· - ·) rfl ?_
  exact (overRow_apply _ r m).trans (rowMax_apply s r)

/-- Each row divided by its sum. -/
def normalize (e : FVec Ideal S512x4096 .f32) : FVec Ideal S512x4096 .f32 :=
  divf e (overRow (rowSum e))

theorem normalize_apply (e : FVec Ideal S512x4096 .f32) (r : Fin 512) (m : Fin 4096) :
    normalize e (ix2 r m) = Ideal.div (e (ix2 r m)) (∑ k : Fin 4096, e (ix2 r k)) := by
  unfold normalize
  refine (divf_apply _ _ _).trans ?_
  refine congrArg (Ideal.div (e (ix2 r m))) ?_
  exact (overRow_apply _ r m).trans (rowSum_apply e r)

/-- The softmax weights of the query tile, rounded. -/
def weights (v6 : Vec Ideal S1x512x512 .bf16) (v8 : Vec Ideal S512x512 .bf16) (v13 : Vec Ideal S1x4096x512 .bf16) :
    FVec Ideal S512x4096 .bf16 :=
  truncf .bf16 (normalize (shiftExp (logits v6 v8 v13))) bitsLt_bf16_f32

theorem weights_apply (v6 : Vec Ideal S1x512x512 .bf16) (v8 : Vec Ideal S512x512 .bf16) (v13 : Vec Ideal S1x4096x512 .bf16)
    (r : Fin 512) (m : Fin 4096) :
    weights v6 v8 v13 (ix2 r m)
      = Ideal.div
          (wexp (fun m => score (fun c => v6 (ix3 (0 : Fin 1) r c)) (fun d c => v8 (ix2 d c)) (fun c => v13 (ix3 (0 : Fin 1) m c))) m)
          (∑ m' : Fin 4096,
            wexp (fun m => score (fun c => v6 (ix3 (0 : Fin 1) r c)) (fun d c => v8 (ix2 d c)) (fun c => v13 (ix3 (0 : Fin 1) m c))) m') := by
  unfold weights
  refine (narrow_apply _ _ _).trans ((normalize_apply _ r m).trans ?_)
  have hs : ∀ k : Fin 4096, shiftExp (logits v6 v8 v13) (ix2 r k)
      = wexp (fun m => score (fun c => v6 (ix3 (0 : Fin 1) r c)) (fun d c => v8 (ix2 d c)) (fun c => v13 (ix3 (0 : Fin 1) m c))) k :=
    fun k => by rw [shiftExp_apply]; simp only [logits_apply]
  simp only [hs]

/-- The output tile's payload is the product of the rounded softmax weights with the scratch. -/
theorem pay3_eq (v6 : Vec Ideal S1x512x512 .bf16) (v8 : Vec Ideal S512x512 .bf16) (v13 : Vec Ideal S1x4096x512 .bf16)
    (v31 : Vec Ideal S4096x512 .bf16) :
    k0_pay3 (F := Ideal) v6 v8 v13 v31
      = matmul (φ₁ := .bf16) (φ₂ := .bf16) dot_S512x4096_S4096x512_S512x512_1_0_0_1_n_n none
          (weights v6 v8 v13) v31 (constant (F := Ideal) S512x512 .f32 0x00000000#32) := rfl

/-- The output tile at `(r, d)`: the softmax-weighted sum, over the keys, of the scratch's column `d`. -/
theorem pay3_apply (v6 : Vec Ideal S1x512x512 .bf16) (v8 : Vec Ideal S512x512 .bf16) (v13 : Vec Ideal S1x4096x512 .bf16)
    (v31 : Vec Ideal S4096x512 .bf16) (r d : Fin 512) :
    k0_pay3 (F := Ideal) v6 v8 v13 v31 (ix2 r d)
      = rowOut (fun m => score (fun c => v6 (ix3 (0 : Fin 1) r c)) (fun d c => v8 (ix2 d c)) (fun c => v13 (ix3 (0 : Fin 1) m c)))
          (fun m => v31 (ix2 m d)) := by
  refine (congrFun (pay3_eq v6 v8 v13 v31) _).trans ?_
  refine (mm_o (weights v6 v8 v13) v31 r d).trans ?_
  unfold rowOut
  exact Finset.sum_congr rfl fun m _ => congrArg₂ (· * ·) (weights_apply v6 v8 v13 r m) rfl

/-- The stored tile has a leading unit axis. -/
theorem pay1_apply (v32 : FVec Ideal S512x512 .f32) (r d : Fin 512) :
    k0_pay1 (F := Ideal) v32 (ix3 (0 : Fin 1) r d) = v32 (ix2 r d) := by
  unfold k0_pay1
  exact shapeCast_ab_1ab_apply v32 _ 0 r d

end Cert.KernelIdeal.Payload

end
-- ==== Proof.PointValue.lean ====
/-
  One grid point's values, over variables: whatever the staged token block, the weights and the scratch hold,
  stated by coordinates, the scratch the body writes at a batch element's first tile is the value projection
  of the block's tokens, and the output tile it writes is the attention output of the tile's 512 query tokens —
  rows `512·q …` of the block — against all 4096 tokens of the block.
-/
import proofs.«126731_j68066641707351_1_alg».proof.Proof.Pieces
import proofs.«126731_j68066641707351_1_alg».proof.Proof.Payload

noncomputable section

open scoped BigOperators

namespace Cert.KernelIdeal.PointValue

open Cert.KernelIdeal Cert.KernelIdeal.Gen Cert.KernelIdeal.Pieces Cert.KernelIdeal.Payload
open Idealize.ShloMosaic Idealize.ShloMosaic.ValueIdx Cert.Attn

/-- Row `r` of the query tile at tile coordinate `q` is row `512·q + r` of the staged block. -/
theorem qtile_apply (i : grid0.Coords) (x0 : Vec Ideal S1x4096x512 .bf16) (q : Fin 8) (hi : (i 1).val = q.val)
    (r ch : Fin 512) :
    qtile i x0 (ix3 (0 : Fin 1) r ch)
      = x0 (ix3 (0 : Fin 1) (⟨512 * q.val + r.val, by have := q.isLt; have := r.isLt; omega⟩ : Fin 4096) ch) := by
  unfold qtile
  show x0 ((Rect.unit (s := S1x4096x512) (k0_off1 i) S1x512x512.size (k0_off1_inb i)).emb (ix3 (0 : Fin 1) r ch)) = _
  refine congrArg x0 (funext fun a => Fin.ext ?_)
  have ho := k0_off1_eq i
  match a with
  | ⟨0, _⟩ => show k0_off1 i 0 + 1 * 0 = 0; rw [ho]; rfl
  | ⟨1, _⟩ => show k0_off1 i 1 + 1 * r.val = 512 * q.val + r.val; rw [ho]; show 512 * (i 1).val + 1 * r.val = _; omega
  | ⟨2, _⟩ => show k0_off1 i 2 + 1 * ch.val = ch.val; rw [ho]; show 0 + 1 * ch.val = _; omega

/-- The scratch after a first tile: the value projection of the block's tokens. -/
theorem scratch_val (x0 : Vec Ideal S1x4096x512 .bf16) (x2 : Vec Ideal S512x512 .bf16)
    (Fb : Fin 4096 → Fin 512 → EReal) (W2 : Fin 512 → Fin 512 → EReal)
    (h0 : ∀ n ch, x0 (ix3 (0 : Fin 1) n ch) = Fb n ch) (h2 : ∀ d ch, x2 (ix2 d ch) = W2 d ch)
    (n : Fin 4096) (d : Fin 512) :
    k0_pay2 (F := Ideal) x0 x2 (ix2 n d) = value (Fb n) W2 d := by
  rw [pay2_apply]
  simp only [h0, h2]

/-- The output tile: the attention output of query tokens `512·q …` of the block. -/
theorem tile_val (i : grid0.Coords) (x0 : Vec Ideal S1x4096x512 .bf16) (x1 : Vec Ideal S512x512 .bf16)
    (xs : Vec Ideal S4096x512 .bf16) (Fb : Fin 4096 → Fin 512 → EReal) (W1 W2 : Fin 512 → Fin 512 → EReal)
    (q : Fin 8) (hi : (i 1).val = q.val)
    (h0 : ∀ n ch, x0 (ix3 (0 : Fin 1) n ch) = Fb n ch) (h1 : ∀ d ch, x1 (ix2 d ch) = W1 d ch)
    (hs : ∀ n d, xs (ix2 n d) = value (Fb n) W2 d) (r d : Fin 512) :
    k0_pay1 (F := Ideal) (k0_pay3 (qtile i x0) x1 x0 xs) (ix3 (0 : Fin 1) r d)
      = attn Fb W1 W2 (⟨512 * q.val + r.val, by have := q.isLt; have := r.isLt; omega⟩ : Fin 4096) d := by
  rw [pay1_apply, pay3_apply]
  unfold attn
  simp only [qtile_apply i x0 q hi, h0, h1, hs]

end Cert.KernelIdeal.PointValue

end
-- ==== Proof.KernelValue.lean ====
/-
  The kernel's value. Along the grid — batch element by batch element, tile by tile — the scratch holds the
  value projection of the current batch element's tokens from that element's first tile on (the other tiles
  leave it as they find it), and every point writes back the attention output of its 512 query tokens. The
  32 written blocks tile the `[4, 4096, 512]` result array, so after the run it is the attention output at
  every index; the closing transpose and reshape are applied to it.
-/
import proofs.«126731_j68066641707351_1_alg».proof.Proof.Blocks
import proofs.«126731_j68066641707351_1_alg».proof.Proof.PointValue

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Pieces Cert.KernelIdeal.Blocks Cert.KernelIdeal.PointValue Cert.Attn

variable (m : (ℓ : Loc nD τ sig) → Buf (Elt Ideal) ℓ) (ρ : Dev nD → PrngReg)

/-- The value projection of batch element `b`: what the scratch holds while the grid is on that element. -/
def scr (c : Dev nD) (b : Fin 4) : Vec Ideal S4096x512 .bf16 := fun j => value (tokK m c b (j 0)) (w2K m c) (j 1)

/-- The attention output of tile `q` of batch element `b`, as the `[1, 512, 512]` block the body stores. -/
def tile (c : Dev nD) (b : Fin 4) (q : Fin 8) : Vec Ideal S1x512x512 .f32 := fun y =>
  attn (tokK m c b) (w1K m c) (w2K m c)
    (⟨512 * q.val + (y 1).val, by have h : (y 1).val < 512 := (y 1).isLt; have := q.isLt; omega⟩ : Fin 4096) (y 2)

/-- The whole result array: the attention output at every `(b, n, d)`. -/
def G (c : Dev nD) : S4x4096x512.Idx → EReal := fun j => attn (tokK m c (j 0)) (w1K m c) (w2K m c) (j 1) (j 2)

/-- A first tile writes the value projection of its batch element into the scratch. -/
theorem sout_pt (c : Dev nD) (t : Fin cfg0.N) :
    k0_pay2 (F := Ideal) (iblk m c 0 t) (iblk m c 2 t) = scr m c (bOf t.val t.isLt) := by
  funext j
  obtain ⟨n, d, rfl⟩ : ∃ (n : Fin 4096) (d : Fin 512), j = ix2 n d := ⟨j 0, j 1, eq_ix2 j⟩
  exact scratch_val (iblk m c 0 t) (iblk m c 2 t) (tokK m c (bOf t.val t.isLt)) (w2K m c)
    (fun n ch => iblk0_apply m c t n ch) (fun d ch => iblk2_apply m c t d ch) n d

/-- Every point, from a scratch holding its batch element's value projection, stores its tile. -/
theorem out_pt (c : Dev nD) (t : Fin cfg0.N) (xs : Vec Ideal S4096x512 .bf16) (hxs : xs = scr m c (bOf t.val t.isLt)) :
    k0_pay1 (F := Ideal) (k0_pay3 (qtile (grid0.coords t) (iblk m c 0 t)) (iblk m c 1 t) (iblk m c 0 t) xs)
      = tile m c (bOf t.val t.isLt) (qOf t.val t.isLt) := by
  subst hxs
  funext y
  obtain ⟨u, r, d, rfl⟩ : ∃ (u : Fin 1) (r d : Fin 512), y = ix3 u r d := ⟨y 0, y 1, y 2, eq_ix3 y⟩
  obtain rfl : u = 0 := Subsingleton.elim _ _
  exact tile_val (grid0.coords t) (iblk m c 0 t) (iblk m c 1 t) (scr m c (bOf t.val t.isLt))
    (tokK m c (bOf t.val t.isLt)) (w1K m c) (w2K m c) (qOf t.val t.isLt) (idx_facts t).2.2.2.2.2.2.2.2.2.2
    (fun n ch => iblk0_apply m c t n ch) (fun d ch => iblk1_apply m c t d ch) (fun n d => rfl) r d

/-- A batch element's first tile: the tile stored, the scratch at the element's value projection. -/
theorem caseA (c : Dev nD) (t : Fin cfg0.N) (h0 : t.val % 8 = 0) :
    outsAt0 m c t.val t.isLt = (tile m c (bOf t.val t.isLt) (qOf t.val t.isLt), scr m c (bOf t.val t.isLt)) :=
  (outsAt0_A m c t h0).trans (congrArg₂ Prod.mk
    ((out_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)).trans
      (out_pt m c t (k0_pay2 (F := Ideal) (iblk m c 0 t) (iblk m c 2 t)) (sout_pt m c t)))
    ((sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)).trans
      (sout_pt m c t)))

/-- Any other tile, from a scratch at the element's value projection: the tile stored, the scratch kept. -/
theorem caseB (c : Dev nD) (t : Fin cfg0.N) (h0 : ¬t.val % 8 = 0)
    (hprev : (outsAt0 m c (t.val - 1) (Nat.lt_of_le_of_lt (Nat.sub_le _ _) t.isLt)).2 = scr m c (bOf t.val t.isLt)) :
    outsAt0 m c t.val t.isLt = (tile m c (bOf t.val t.isLt) (qOf t.val t.isLt), scr m c (bOf t.val t.isLt)) :=
  (outsAt0_B m c t h0).trans (congrArg₂ Prod.mk
    ((out_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2).trans
      (out_pt m c t (outsAt0 m c (t.val - 1) (Nat.lt_of_le_of_lt (Nat.sub_le _ _) t.isLt)).2 hprev))
    hprev)

/-- What the output's staging buffer and the scratch hold after every point, by induction along the grid. -/
theorem outsAt_eq (c : Dev nD) : ∀ (n : ℕ) (h : n < cfg0.N),
    outsAt0 m c n h = (tile m c (bOf n h) (qOf n h), scr m c (bOf n h))
  | 0, h => caseA m c ⟨0, h⟩ rfl
  | n + 1, h => by
    by_cases h0 : (n + 1) % 8 = 0
    · exact caseA m c ⟨n + 1, h⟩ h0
    · refine caseB m c ⟨n + 1, h⟩ h0 ?_
      show (outsAt0 m c n _).2 = _
      rw [outsAt_eq c n (Nat.lt_of_succ_lt h)]
      exact congrArg (scr m c) (Fin.ext (by show n / 8 = (n + 1) / 8; omega))

/-- What point `t` writes back is block `t` of the attention output. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3, outsAt_eq]
  obtain ⟨-, -, -, -, -, -, -, e0, e1, e2, -⟩ := idx_facts t
  funext y
  show tile m c (bOf t.val t.isLt) (qOf t.val t.isLt) y = G m c (((cfg0.win 3).blk t).view.emb y)
  have key : ∀ (b b' : Fin 4) (n n' : Fin 4096) (d d' : Fin 512), b = b' → n = n' → d = d' →
      attn (tokK m c b) (w1K m c) (w2K m c) n d = attn (tokK m c b') (w1K m c) (w2K m c) n' d' := by
    rintro _ _ _ _ _ _ rfl rfl rfl; rfl
  have hy0 : (y 0).val < 1 := (y 0).isLt
  have hy1 : (y 1).val < 512 := (y 1).isLt
  exact key _ _ _ _ _ _
    (Fin.ext (by show t.val / 8 = win0_3.index t (0 : Fin 3) * 1 + 1 * (y 0).val; omega))
    (Fin.ext (by show 512 * (t.val % 8) + (y 1).val = win0_3.index t (1 : Fin 3) * 512 + 1 * (y 1).val; omega))
    (Fin.ext (by show (y 2).val = win0_3.index t (2 : Fin 3) * 512 + 1 * (y 2).val; omega))

/-- An index of the result array is in point `t`'s block iff each coordinate is in the block's range. -/
theorem mem_blk (t : Fin cfg0.N) (i : S4x4096x512.Idx) :
    i ∈ ((cfg0.win 3).blk t).view.set ↔ ∀ a : Fin 3, win0_3.index t a * S1x512x512.size a ≤ (i a).val
      ∧ (i a).val < win0_3.index t a * S1x512x512.size a + S1x512x512.size a := by
  show i ∈ ((View.whole main_v5).slice (win0_3.rect t)).set ↔ _
  rw [View.set_slice_whole, Rect.mem_set_unit]
  exact Iff.rfl

/-- Every index of the result array is in the block of the point (its batch element, its row's tile). -/
theorem cover (i : S4x4096x512.Idx) :
    ∃ t : Fin cfg0.N, (cfg0.win 3).flush t = true ∧ i ∈ ((cfg0.win 3).blk t).view.set := by
  have hN : cfg0.N = 32 := N_0
  have hi0 : (i 0).val < 4 := (i 0).isLt
  have hi1 : (i 1).val < 4096 := (i 1).isLt
  have hi2 : (i 2).val < 512 := (i 2).isLt
  refine ⟨⟨(i 0).val * 8 + (i 1).val / 512, by omega⟩, flush0_3 _, ?_⟩
  rw [mem_blk]
  obtain ⟨-, -, -, -, -, -, -, e0, e1, e2, -⟩ := idx_facts ⟨(i 0).val * 8 + (i 1).val / 512, by omega⟩
  intro a
  match a with
  | ⟨0, _⟩ =>
    show win0_3.index _ (0 : Fin 3) * 1 ≤ (i 0).val ∧ (i 0).val < win0_3.index _ (0 : Fin 3) * 1 + 1
    rw [e0]; dsimp only; omega
  | ⟨1, _⟩ =>
    show win0_3.index _ (1 : Fin 3) * 512 ≤ (i 1).val ∧ (i 1).val < win0_3.index _ (1 : Fin 3) * 512 + 512
    rw [e1]; dsimp only; omega
  | ⟨2, _⟩ =>
    show win0_3.index _ (2 : Fin 3) * 512 ≤ (i 2).val ∧ (i 2).val < win0_3.index _ (2 : Fin 3) * 512 + 512
    rw [e2]; omega

/-- The result array after the run is the attention output. -/
theorem final (c : Dev nD) : (dats m 0 c).arrAt 3 cfg0.N = G m c :=
  (dats m 0 c).arrAt_eq_of_cover 3 (G m c) (fun t _ => flushed_eq m c t) cover

/-- In terms of the arguments: the attention output of the input as tokens and the two weight matrices. -/
theorem G_eq (c : Dev nD) :
    G m c = whole (headK (m ((c : Thread nD τ).loc main_arg0))) (m ((c : Thread nD τ).loc main_arg1))
      (m ((c : Thread nD τ).loc main_arg2)) := by
  have e0 : tokK m c = fun b n ch => headK (m ((c : Thread nD τ).loc main_arg0)) (ix3 b n ch) :=
    funext fun b => funext fun n => funext fun ch => V_v2 m c _
  have e1 : w1K m c = fun d ch => m ((c : Thread nD τ).loc main_arg1) (ix2 d ch) :=
    funext fun d => funext fun ch => V_v3 m c _
  have e2 : w2K m c = fun d ch => m ((c : Thread nD τ).loc main_arg2) (ix2 d ch) :=
    funext fun d => funext fun ch => V_v4 m c _
  funext j
  unfold G whole
  rw [e0, e1, e2]

/-- The closing layout operations: the last two axes swapped back, the tokens laid out `64 × 64` again. -/
def tailK (o : S4x4096x512.Idx → EReal) : S4x512x64x64.Idx → EReal :=
  shapeCast S4x512x64x64 (transpose S4x512x4096 [0, 2, 1] o transposes_S4x4096x512_S4x512x4096_0_2_1)
    shapeCasts_S4x512x4096_S4x512x64x64

/-- The program's result: the closing operations applied to the result array. -/
theorem tail_eq (c : Dev nD) :
    Pipeline.afterTail₀ cfgs (dats m) 0 (V0 m) [hostOps1] c main_v7 = tailK (G m c) := by
  unfold Pipeline.afterTail₀
  show StableHlo.after hostOps1 _ (Proc.devRef .tc main_v7) = _
  after_results
  refine funext fun i => ?_
  have e : Pipeline.withArrays (cfgs 0).spec c (V0 m c) (fun w => (dats m 0 c).arrAt w (cfgs 0).N)
      (Proc.tc.devRef main_v5) = G m c :=
    (Pipeline.withArrays_arr spec0 launch0.win.arr_inj c (V0 m c) (fun w => (dats m 0 c).arrAt w (cfgs 0).N) 3).trans (final m c)
  rw [e]
  rfl

/-- The run, read: the program's result at the closing operations of the attention output of the input as tokens,
    the arguments unchanged. -/
theorem run : θ_run defs (onTc (τ := τ) (main (F := Ideal))) ⟨m, fun _ => 0, ρ⟩ fun r => ∀ c : Dev nD,
      r.2.mem ((c.tc : Thread nD τ).loc main_v7)
          = tailK (whole (headK (m ((c.tc : Thread nD τ).loc main_arg0))) (m ((c.tc : Thread nD τ).loc main_arg1))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans
        ((tail_eq m c).trans (congrArg tailK (G_eq m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefValue.lean ====
/-
  The reference, read at an index: its `[4, 4096, 512]` result before the closing transpose and reshape is,
  at `(b, n, d)`, the attention output `Cert.Attn.attn` of batch element `b`'s token features — the
  transposed, reshaped input — and the two weight matrices. Each host operation is read at the index by its
  stage lemma; the row maximum is the fold of `max` over the key axis.
-/
import proofs.«126731_j68066641707351_1_alg».proof.Proof.Gen.ReferenceIdeal.Read
import proofs.«126731_j68066641707351_1_alg».proof.Proof.Spec
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

variable (x0 : (⟨S4x512x64x64, .f32⟩ : BufTy).Contents (Elt Ideal)) (x1 x2 : (⟨S512x512, .f32⟩ : BufTy).Contents (Elt Ideal))

/-- Token `n` of batch element `b`: a row of the transposed, reshaped input. -/
def tok (b : Fin 4) (n : Fin 4096) (c : Fin 512) : EReal := val_main_v1 (F := Ideal) x0 (ix3 b n c)

/-- A weight matrix by its two coordinates. -/
def mat (w : (⟨S512x512, .f32⟩ : BufTy).Contents (Elt Ideal)) (d c : Fin 512) : EReal := w (ix2 d c)

/-- The query projection at `(b, n, d)`. -/
theorem v2_apply (b : Fin 4) (n : Fin 4096) (d : Fin 512) :
    val_main_v2 (F := Ideal) x0 x1 (ix3 b n d) = ∑ c : Fin 512, tok x0 b n c * mat x1 d c := by
  rw [val_main_v2_apply]
  refine Finset.sum_congr rfl fun k _ => ?_
  have e1 : lidx_main_v2 (ix3 b n d) k = ix3 b n k := funext fun a => by
    match a with | ⟨0, _⟩ => rfl | ⟨1, _⟩ => rfl | ⟨2, _⟩ => rfl
  have e2 : ridx_main_v2 (ix3 b n d) k = ix2 d k := funext fun a => by
    match a with | ⟨0, _⟩ => rfl | ⟨1, _⟩ => rfl
  rw [e1, e2]; rfl

/-- The scaled logit of query `n` against key `m`. -/
theorem v5_apply (b : Fin 4) (n m : Fin 4096) :
    val_main_v5 (F := Ideal) x0 x1 (ix3 b n m) = score (tok x0 b n) (mat x1) (tok x0 b m) := by
  rw [val_main_v5_apply, val_main_v3_apply, val_main_v4_apply, val_main_cst_apply]
  unfold score scale
  refine congrArg (· * _) (Finset.sum_congr rfl fun k _ => ?_)
  have e1 : lidx_main_v3 (ix3 b n m) k = ix3 b n k := funext fun a => by
    match a with | ⟨0, _⟩ => rfl | ⟨1, _⟩ => rfl | ⟨2, _⟩ => rfl
  have e2 : ridx_main_v3 (ix3 b n m) k = ix3 b m k := funext fun a => by
    match a with | ⟨0, _⟩ => rfl | ⟨1, _⟩ => rfl | ⟨2, _⟩ => rfl
  rw [e1, e2, v2_apply]; rfl

theorem red : S4x4096x4096.Reduces [2] S4x4096 := by decide

/-- The row maximum of query `n`'s logits. -/
theorem v8_apply (b : Fin 4) (n : Fin 4096) :
    val_main_v8 (F := Ideal) x0 x1 (ix2 b n) = rmax (fun m => score (tok x0 b n) (mat x1) (tok x0 b m)) := by
  rw [val_main_v8_apply, val_main_v7_apply, val_main_cst_1_apply]
  unfold val_main_v6
  refine (congrArg (FloatOps.maximumf (F := Ideal) (φ := .f32) (FloatOps.ofBits .f32 0xFF800000#32))
    (Host.reduce_eq_fold_single (FloatOps.maximumf (F := Ideal) (φ := .f32)) (val_main_v5 (F := Ideal) x0 x1)
      (val_main_cst_0 (F := Ideal)) reducesTo_S4x4096x4096_S4x4096_d2 red h_S_ (ix2 b n))).trans ?_
  have e : ∀ m : Fin 4096, val_main_v5 (F := Ideal) x0 x1 (red.lift (ix2 b n) m)
      = score (tok x0 b n) (mat x1) (tok x0 b m) := fun m => by
    have el : red.lift (ix2 b n) m = ix3 b n m := funext fun a => Fin.ext (by
      match a with | ⟨0, _⟩ => rfl | ⟨1, _⟩ => rfl | ⟨2, _⟩ => rfl)
    rw [el, v5_apply]
  show max (Ideal.ofBits .f32 0xFF800000#32) (Finset.fold max (Ideal.ofBits .f32 0xFF800000#32)
    (fun m : Fin 4096 => val_main_v5 (F := Ideal) x0 x1 (red.lift (ix2 b n) m)) Finset.univ) = _
  simp only [e]
  rfl

/-- The shifted exponential at `(b, n, m)`. -/
theorem v12_apply (b : Fin 4) (n m : Fin 4096) :
    val_main_v12 (F := Ideal) x0 x1 (ix3 b n m) = wexp (fun m => score (tok x0 b n) (mat x1) (tok x0 b m)) m := by
  rw [val_main_v12_apply, val_main_v11_apply, val_main_v10_apply, val_main_v9_apply]
  have e1 : idx_main_v9 (idx_main_v10 (ix3 b n m)) = ix2 b n := funext fun a => by
    match a with | ⟨0, _⟩ => rfl | ⟨1, _⟩ => rfl
  rw [e1, v8_apply, v5_apply]; rfl

/-- The softmax denominator of query `n`. -/
theorem v13_apply (b : Fin 4) (n : Fin 4096) :
    val_main_v13 (F := Ideal) x0 x1 (ix2 b n)
      = ∑ m' : Fin 4096, wexp (fun m => score (tok x0 b n) (mat x1) (tok x0 b m)) m' := by
  rw [val_main_v13_apply, val_main_cst_2_apply]
  show Ideal.ofBits .f32 0x00000000#32 + _ = _
  rw [Ideal.ofBits_zero_f32, zero_add]
  refine Finset.sum_congr rfl fun k _ => ?_
  have e1 : idx_main_v13 (ix2 b n) k = ix3 b n k := funext fun a => by
    match a with | ⟨0, _⟩ => rfl | ⟨1, _⟩ => rfl | ⟨2, _⟩ => rfl
  rw [e1, v12_apply]

/-- The softmax weight of key `m` for query `n`. -/
theorem v16_apply (b : Fin 4) (n m : Fin 4096) :
    val_main_v16 (F := Ideal) x0 x1 (ix3 b n m)
      = Ideal.div (wexp (fun m => score (tok x0 b n) (mat x1) (tok x0 b m)) m)
          (∑ m' : Fin 4096, wexp (fun m => score (tok x0 b n) (mat x1) (tok x0 b m)) m') := by
  rw [val_main_v16_apply, val_main_v15_apply, val_main_v14_apply]
  have e1 : idx_main_v14 (idx_main_v15 (ix3 b n m)) = ix2 b n := funext fun a => by
    match a with | ⟨0, _⟩ => rfl | ⟨1, _⟩ => rfl
  rw [e1, v13_apply, v12_apply]; rfl

/-- The value projection at `(b, m, d)`. -/
theorem v17_apply (b : Fin 4) (m : Fin 4096) (d : Fin 512) :
    val_main_v17 (F := Ideal) x0 x2 (ix3 b m d) = value (tok x0 b m) (mat x2) d := by
  rw [val_main_v17_apply]
  unfold value
  refine Finset.sum_congr rfl fun k _ => ?_
  have e1 : lidx_main_v17 (ix3 b m d) k = ix3 b m k := funext fun a => by
    match a with | ⟨0, _⟩ => rfl | ⟨1, _⟩ => rfl | ⟨2, _⟩ => rfl
  have e2 : ridx_main_v17 (ix3 b m d) k = ix2 d k := funext fun a => by
    match a with | ⟨0, _⟩ => rfl | ⟨1, _⟩ => rfl
  rw [e1, e2]; rfl

/-- The reference's attention output at `(b, n, d)` is `attn` of batch element `b`. -/
theorem v18_apply (b : Fin 4) (n : Fin 4096) (d : Fin 512) :
    val_main_v18 (F := Ideal) x0 x1 x2 (ix3 b n d) = attn (tok x0 b) (mat x1) (mat x2) n d := by
  rw [val_main_v18_apply]
  unfold attn rowOut
  refine Finset.sum_congr rfl fun k _ => ?_
  have e1 : lidx_main_v18 (ix3 b n d) k = ix3 b n k := funext fun a => by
    match a with | ⟨0, _⟩ => rfl | ⟨1, _⟩ => rfl | ⟨2, _⟩ => rfl
  have e2 : ridx_main_v18 (ix3 b n d) k = ix3 b k d := funext fun a => by
    match a with | ⟨0, _⟩ => rfl | ⟨1, _⟩ => rfl | ⟨2, _⟩ => rfl
  rw [e1, e2, v16_apply, v17_apply]

/-- The reference's `[4, 4096, 512]` result is the whole attention output of the input as tokens. -/
theorem v18_whole : val_main_v18 (F := Ideal) x0 x1 x2 = whole (val_main_v1 (F := Ideal) x0) x1 x2 := by
  funext j
  obtain ⟨b, n, d, rfl⟩ : ∃ (b : Fin 4) (n : Fin 4096) (d : Fin 512), j = ix3 b n d := ⟨j 0, j 1, j 2, eq_ix3 j⟩
  exact (v18_apply x0 x1 x2 b n d).trans rfl

/-- The reference's result: the closing transpose and reshape of that array. -/
theorem v20_eq : val_main_v20 (F := Ideal) x0 x1 x2
    = shapeCast S4x512x64x64 (transpose S4x512x4096 [0, 2, 1] (whole (val_main_v1 (F := Ideal) x0) x1 x2)
        transposes_S4x4096x512_S4x512x4096_0_2_1) shapeCasts_S4x512x4096_S4x512x64x64 := by
  unfold val_main_v20 val_main_v19
  rw [v18_whole]

end Cert.ReferenceIdeal.RefValue

end
-- ==== Proof.lean ====
/-
  Single-head self-attention over `4096 = 64 × 64` spatial tokens with 512 channels, four batch elements:
  with `f` the input reshaped to tokens × channels,
    q = f · W1ᵀ,   p = softmax (q · fᵀ · scale) along the keys,   v = f · W2ᵀ,   out = p · v,
  and the result laid out channels × 64 × 64 again.

  The kernel walks a grid of (batch element, tile of 512 query tokens). At the first tile of a batch element it
  computes the value projection `v` of the element's 4096 tokens into a scratch buffer, which the later tiles
  of the element read; every tile computes its 512 rows of `q`, their logits against all 4096 keys, the row
  softmax and the product with the scratch. The reference computes the same four products and the same softmax
  on whole arrays. Over the extended reals the two are the same function of the inputs index by index: each
  matrix product is the sum over its one contracted axis, a change of float format is the identity, the row
  maximum is the fold of `max` from −∞ over the keys and the row sum the sum over the keys, on both sides; the
  scale is the same f32 word on both sides. No sum is re-associated and no factor moved across a sum, so the
  equality holds at every extended real and the finiteness of the inputs is not used.

  The frames: each program terminates without a fault and leaves its arguments unchanged. The kernel's
  idealization rewrote no operation, so there is nothing to preserve beyond the program text itself.
-/
import proofs.«126731_j68066641707351_1_alg».proof.Defs
import proofs.«126731_j68066641707351_1_alg».proof.Proof.Gen.Kernel
import proofs.«126731_j68066641707351_1_alg».proof.Proof.Gen.Kernel.Skeleton
import proofs.«126731_j68066641707351_1_alg».proof.Proof.Gen.Kernel.Launch
import proofs.«126731_j68066641707351_1_alg».proof.Proof.Gen.Kernel.Points
import proofs.«126731_j68066641707351_1_alg».proof.Proof.Gen.Kernel.Frame
import proofs.«126731_j68066641707351_1_alg».proof.Proof.Gen.KernelIdeal
import proofs.«126731_j68066641707351_1_alg».proof.Proof.Gen.KernelIdeal.Skeleton
import proofs.«126731_j68066641707351_1_alg».proof.Proof.Gen.KernelIdeal.Launch
import proofs.«126731_j68066641707351_1_alg».proof.Proof.Gen.KernelIdeal.Points
import proofs.«126731_j68066641707351_1_alg».proof.Proof.Gen.KernelIdeal.Frame
import proofs.«126731_j68066641707351_1_alg».proof.Proof.Gen.ReferenceIdeal
import proofs.«126731_j68066641707351_1_alg».proof.Proof.Gen.Pre_finite_inputs
import proofs.«126731_j68066641707351_1_alg».proof.Proof.Gen.ReferenceIdeal.Run
import proofs.«126731_j68066641707351_1_alg».proof.Proof.Gen.ReferenceIdeal.Read
import proofs.«126731_j68066641707351_1_alg».proof.Proof.KernelValue
import proofs.«126731_j68066641707351_1_alg».proof.Proof.RefValue
import Idealize.ShloMosaic.Adequacy
import Idealize.ShloMosaic.Init

noncomputable section

namespace Cert.Proof

open Idealize.ShloMosaic Idealize.SL.Sem

/-- The kernel as printed terminates, faults nowhere, and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its reading at the ideal values. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: it runs, and writes none of its arguments. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The idealization rewrote nothing. -/
theorem preserves : Cert.preserves_Kernel_KernelIdeal := trivial

/-- At the ideal values both programs end with the closing transpose and reshape of the attention output of the
    input as tokens: the kernel's result array block by block along its grid, the reference's stage by stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.v20_eq, (hagree c).1, (hagree c).2.1,
    (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
